-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S_ : Shape := ⟨0, ![]⟩

class Facts : Prop where
  bcast_S_S8x65536x1x64 : S_.BroadcastsInDim S8x65536x1x64 (![] : Fin 0 → Fin S8x65536x1x64.rank)
  reducesTo_S8x65536x1x64_S_d0_1_2_3 : S8x65536x1x64.ReducesTo [0, 1, 2, 3] S_
  h_S_ : 0 < S_.numel
  bcast_S_S8x64x128 : S_.BroadcastsInDim S8x64x128 (![] : Fin 0 → Fin S8x64x128.rank)
  reducesTo_S8x64x128_S_d0_1_2 : S8x64x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x48 : S_.BroadcastsInDim S8x128x48 (![] : Fin 0 → Fin S8x128x48.rank)
  reducesTo_S8x128x48_S_d0_1_2 : S8x128x48.ReducesTo [0, 1, 2] S_
  bcast_S_S8x48 : S_.BroadcastsInDim S8x48 (![] : Fin 0 → Fin S8x48.rank)
  reducesTo_S8x48_S_d0_1 : S8x48.ReducesTo [0, 1] S_

variable [Facts]

def fn_part1 {F : FTy → Type} [FloatOps F] (main_arg4 : FVec F S8x128 .f32) (main_arg5 : FVec F S8x128x48 .f32) (main_arg6 : FVec F S8x48 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x48 .f32 := Host.absf main_arg5
  let main_cst_8 : FVec F S_ .f32 := constant S_ .f32 0x7F800000#32
  let main_v25 : FVec F S8x128x48 .f32 := broadcastInDim S8x128x48 ![] bcast_S_S8x128x48 main_cst_8
  let main_v26 : IVec S8x128x48 1 := cmpf .olt main_v24 main_v25
  let main_c_9 : IVec S_ 1 := constantI S_ 1 1#1
  let main_v27 : IVec S_ 1 := (fun x v => Host.reduce IntOp.andi x v reducesTo_S8x128x48_S_d0_1_2 h_S_) main_v26 main_c_9
  let main_v28 : IVec S_ 1 := andi main_v23 main_v27
  let main_v29 : FVec F S8x48 .f32 := Host.absf main_arg6
  let main_cst_10 : FVec F S_ .f32 := constant S_ .f32 0x7F800000#32
  let main_v30 : FVec F S8x48 .f32 := broadcastInDim S8x48 ![] bcast_S_S8x48 main_cst_10
  let main_v31 : IVec S8x48 1 := cmpf .olt main_v29 main_v30
  let main_c_11 : IVec S_ 1 := constantI S_ 1 1#1
  let main_v32 : IVec S_ 1 := (fun x v => Host.reduce IntOp.andi x v reducesTo_S8x48_S_d0_1 h_S_) main_v31 main_c_11
  let main_v33 : IVec S_ 1 := andi main_v28 main_v32
  main_v33

def fn {F : FTy → Type} [FloatOps F] (main_arg0 : FVec F S8x65536x1x64 .f32) (main_arg1 : FVec F S8x64x128 .f32) (main_arg2 : FVec F S8x128 .f32) (main_arg3 : FVec F S8x128x128 .f32) (main_arg4 : FVec F S8x128 .f32) (main_arg5 : FVec F S8x128x48 .f32) (main_arg6 : FVec F S8x48 .f32) : IVec S_ 1 :=
  let main_v0 : FVec F S8x65536x1x64 .f32 := Host.absf main_arg0
  let main_cst : FVec F S_ .f32 := constant S_ .f32 0x7F800000#32
  let main_v1 : FVec F S8x65536x1x64 .f32 := broadcastInDim S8x65536x1x64 ![] bcast_S_S8x65536x1x64 main_cst
  let main_v2 : IVec S8x65536x1x64 1 := cmpf .olt main_v0 main_v1
  let main_c : IVec S_ 1 := constantI S_ 1 1#1
  let main_v3 : IVec S_ 1 := (fun x v => Host.reduce IntOp.andi x v reducesTo_S8x65536x1x64_S_d0_1_2_3 h_S_) main_v2 main_c
  let main_v4 : FVec F S8x64x128 .f32 := Host.absf main_arg1
  let main_cst_0 : FVec F S_ .f32 := constant S_ .f32 0x7F800000#32
  let main_v5 : FVec F S8x64x128 .f32 := broadcastInDim S8x64x128 ![] bcast_S_S8x64x128 main_cst_0
  let main_v6 : IVec S8x64x128 1 := cmpf .olt main_v4 main_v5
  let main_c_1 : IVec S_ 1 := constantI S_ 1 1#1
  let main_v7 : IVec S_ 1 := (fun x v => Host.reduce IntOp.andi x v reducesTo_S8x64x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_arg6 main_v13 main_v16
-- ==== Kernel.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S8x65536x64 : Shape := ⟨3, ![8, 65536, 64]⟩
abbrev S8x1x128 : Shape := ⟨3, ![8, 1, 128]⟩
abbrev S8x1x48 : Shape := ⟨3, ![8, 1, 48]⟩
abbrev S8x65536x48 : Shape := ⟨3, ![8, 65536, 48]⟩
abbrev S1x8192x64 : Shape := ⟨3, ![1, 8192, 64]⟩
abbrev S1x64x128 : Shape := ⟨3, ![1, 64, 128]⟩
abbrev S1x1x128 : Shape := ⟨3, ![1, 1, 128]⟩
abbrev S1x128x128 : Shape := ⟨3, ![1, 128, 128]⟩
abbrev S1x128x48 : Shape := ⟨3, ![1, 128, 48]⟩
abbrev S1x1x48 : Shape := ⟨3, ![1, 1, 48]⟩
abbrev S1x8192x48 : Shape := ⟨3, ![1, 8192, 48]⟩
abbrev S8192x64 : Shape := ⟨2, ![8192, 64]⟩
abbrev S64x128 : Shape := ⟨2, ![64, 128]⟩
abbrev S8192x128 : Shape := ⟨2, ![8192, 128]⟩
abbrev S1x128 : Shape := ⟨2, ![1, 128]⟩
abbrev S128x128 : Shape := ⟨2, ![128, 128]⟩
abbrev S128x48 : Shape := ⟨2, ![128, 48]⟩
abbrev S8192x48 : Shape := ⟨2, ![8192, 48]⟩
abbrev S1x48 : Shape := ⟨2, ![1, 48]⟩

abbrev nBuf : Space → Nat
  | .hbm => 15
  | .vmem => 16
  | .smem => 0
  | _ => 0

abbrev bufTy : (tb : Table) → Fin (tcTables nBuf tb) → BufTy
  | .hbm, ⟨0, _⟩ => ⟨S8x65536x1x64, .f32⟩
  | .hbm, ⟨1, _⟩ => ⟨S8x64x128, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S8x128x48, .f32⟩
  | .hbm, ⟨6, _⟩ => ⟨S8x48, .f32⟩
  | .hbm, ⟨7, _⟩ => ⟨S8x65536x64, .f32⟩
  | .hbm, ⟨8, _⟩ => ⟨S8x1x128, .f32⟩
  | .hbm, ⟨9, _⟩ => ⟨S8x1x128, .f32⟩
  | .hbm, ⟨10, _⟩ => ⟨S8x1x48, .f32⟩
  | .hbm, ⟨11, _⟩ => ⟨S8x64x128, .bf16⟩
  | .hbm, ⟨12, _⟩ => ⟨S8x128x128, .bf16⟩
  | .hbm, ⟨13, _⟩ => ⟨S8x128x48, .bf16⟩
  | .hbm, ⟨14, _⟩ => ⟨S8x65536x48, .f32⟩
  | .local _ .vmem, ⟨0, _⟩ => ⟨S1x8192x64, .f32⟩
  | .local _ .vmem, ⟨1, _⟩ => ⟨S1x8192x64, .f32⟩
  | .local _ .vmem, ⟨2, _⟩ => ⟨S1x64x128, .bf16⟩
  | .local _ .vmem, ⟨3, _⟩ => ⟨S1x64x128, .bf16⟩
  | .local _ .vmem, ⟨4, _⟩ => ⟨S1x1x128, .f32⟩
  | .local _ .vmem, ⟨5, _⟩ => ⟨S1x1x128, .f32⟩
  | .local _ .vmem, ⟨6, _⟩ => ⟨S1x128x128, .bf16⟩
  | .local _ .vmem, ⟨7, _⟩ => ⟨S1x128x128, .bf16⟩
  | .local _ .vmem, ⟨8, _⟩ => ⟨S1x1x128, .f32⟩
  | .local _ .vmem, ⟨9, _⟩ => ⟨S1x1x128, .f32⟩
  | .local _ .vmem, ⟨10, _⟩ => ⟨S1x128x48, .bf16⟩
  | .local _ .vmem, ⟨11, _⟩ => ⟨S1x128x48, .bf16⟩
  | .local _ .vmem, ⟨12, _⟩ => ⟨S1x1x48, .f32⟩
  | .local _ .vmem, ⟨13, _⟩ => ⟨S1x1x48, .f32⟩
  | .local _ .vmem, ⟨14, _⟩ => ⟨S1x8192x48, .f32⟩
  | .local _ .vmem, ⟨15, _⟩ => ⟨S1x8192x48, .f32⟩
  | _, _ => ⟨S8x65536x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x48 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8192x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x65536x1x64_S8x65536x64 : S8x65536x1x64.ShapeCasts S8x65536x64
  shapeCasts_S8x128_S8x1x128 : S8x128.ShapeCasts S8x1x128
  shapeCasts_S8x48_S8x1x48 : S8x48.ShapeCasts S8x1x48
  bitsLt_bf16_f32 : FTy.bits .bf16 < FTy.bits .f32
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  iota_S8192x64_d1_w32 : S8192x64.Iotas .tc 32 [1]
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S8192x128 : S1x128.Broadcasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128x48_S1x128x48_0_0_0 : ∀ a, (![0, 0, 0] : Fin 3 → Nat) a + S1x128x48.size a ≤ S1x128x48.size a
  h_S1x128x48 : 0 < S1x128x48.numel
  shapeCasts_S1x128x48_S128x48 : S1x128x48.ShapeCasts S128x48
  inb_S1x1x48_S1x1x48_0_0_0 : ∀ a, (![0, 0, 0] : Fin 3 → Nat) a + S1x1x48.size a ≤ S1x1x48.size a
  h_S1x1x48 : 0 < S1x1x48.numel
  shapeCasts_S1x1x48_S1x48 : S1x1x48.ShapeCasts S1x48
  broadcasts_S1x48_S8192x48 : S1x48.Broadcasts S8192x48
  inb_S1x8192x48_S1x8192x48_0_0_0 : ∀ a, (![0, 0, 0] : Fin 3 → Nat) a + S1x8192x48.size a ≤ S1x8192x48.size a
  h_S1x8192x48 : 0 < S1x8192x48.numel
  shapeCasts_S1x8192x48_S8192x48 : S1x8192x48.ShapeCasts S8192x48
  shapeCasts_S8192x48_S1x8192x48 : S8192x48.ShapeCasts S1x8192x48
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x128_S128x48_S8192x48_1_0_0_1_n_n_wf : DotDims.WF S8192x128 S128x48 S8192x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S8x65536x64.size a
  hwx0_0 : ∀ i : grid0.Coords, EltTy.bits .f32 = 32 ∨ (Rect.block (s := S8x65536x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x128.size a
  hwx0_1 : ∀ i : grid0.Coords, EltTy.bits .bf16 = 32 ∨ (Rect.block (s := S8x64x128) S1x64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S8x128x128.size a
  hwx0_3 : ∀ i : grid0.Coords, EltTy.bits .bf16 = 32 ∨ (Rect.block (s := S8x128x128) S1x128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x48.size a ≤ S8x128x48.size a
  hwx0_5 : ∀ i : grid0.Coords, EltTy.bits .bf16 = 32 ∨ (Rect.block (s := S8x128x48) S1x128x48.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x48.size a ≤ S8x1x48.size a
  hwx0_6 : ∀ i : grid0.Coords, EltTy.bits .f32 = 32 ∨ (Rect.block (s := S8x1x48) S1x1x48.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8192x48.size a ≤ S8x65536x48.size a
  hwx0_7 : ∀ i : grid0.Coords, EltTy.bits .f32 = 32 ∨ (Rect.block (s := S8x65536x48) S1x8192x48.size (cc0_transform_7 i) (hinb0_7 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x48_S8192x48_1_0_0_1_n_n : DotDims S8192x128 S128x48 S8192x48 where
  lhsContracting := [1]
  rhsContracting := [0]
  lhsNonContracting := [0]
  rhsNonContracting := [1]
  lhsBatch := []
  rhsBatch := []
  wf := dot_S8192x128_S128x48_S8192x48_1_0_0_1_n_n_wf

abbrev win0_0 : Pipeline.Window sig grid0 :=
  Pipeline.Window.ofSpec (Memref.whole main_v0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128x48.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x48.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x8192x48.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S8x65536x1x48 : Shape := ⟨4, ![8, 65536, 1, 48]⟩
abbrev S8x65536x1x16 : Shape := ⟨4, ![8, 65536, 1, 16]⟩
abbrev S_ : Shape := ⟨0, ![]⟩
abbrev S8x65536x64 : Shape := ⟨3, ![8, 65536, 64]⟩
abbrev S8x65536x128 : Shape := ⟨3, ![8, 65536, 128]⟩
abbrev S8x1x128 : Shape := ⟨3, ![8, 1, 128]⟩
abbrev S8x65536x48 : Shape := ⟨3, ![8, 65536, 48]⟩
abbrev S8x1x48 : Shape := ⟨3, ![8, 1, 48]⟩

abbrev nBuf : Space → Nat
  | .hbm => 37
  | .vmem => 0
  | .smem => 0
  | _ => 0

abbrev bufTy : (tb : Table) → Fin (tcTables nBuf tb) → BufTy
  | .hbm, ⟨0, _⟩ => ⟨S8x65536x1x64, .f32⟩
  | .hbm, ⟨1, _⟩ => ⟨S8x64x128, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S8x128x48, .f32⟩
  | .hbm, ⟨6, _⟩ => ⟨S8x48, .f32⟩
  | .hbm, ⟨7, _⟩ => ⟨S8x65536x1x48, .f32⟩
  | .hbm, ⟨8, _⟩ => ⟨S8x65536x1x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x65536x1x16, .f32⟩
  | .hbm, ⟨13, _⟩ => ⟨S8x65536x1x16, .f32⟩
  | .hbm, ⟨14, _⟩ => ⟨S_, .f32⟩
  | .hbm, ⟨15, _⟩ => ⟨S8x65536x1x16, .f32⟩
  | .hbm, ⟨16, _⟩ => ⟨S8x65536x1x16, .f32⟩
  | .hbm, ⟨17, _⟩ => ⟨S8x65536x1x64, .f32⟩
  | .hbm, ⟨18, _⟩ => ⟨S8x65536x64, .f32⟩
  | .hbm, ⟨19, _⟩ => ⟨S8x65536x128, .f32⟩
  | .hbm, ⟨20, _⟩ => ⟨S8x1x128, .f32⟩
  | .hbm, ⟨21, _⟩ => ⟨S8x65536x128, .f32⟩
  | .hbm, ⟨22, _⟩ => ⟨S8x65536x128, .f32⟩
  | .hbm, ⟨23, _⟩ => ⟨S_, .f32⟩
  | .hbm, ⟨24, _⟩ => ⟨S8x65536x128, .f32⟩
  | .hbm, ⟨25, _⟩ => ⟨S8x65536x128, .f32⟩
  | .hbm, ⟨26, _⟩ => ⟨S8x65536x128, .f32⟩
  | .hbm, ⟨27, _⟩ => ⟨S8x1x128, .f32⟩
  | .hbm, ⟨28, _⟩ => ⟨S8x65536x128, .f32⟩
  | .hbm, ⟨29, _⟩ => ⟨S8x65536x128, .f32⟩
  | .hbm, ⟨30, _⟩ => ⟨S_, .f32⟩
  | .hbm, ⟨31, _⟩ => ⟨S8x65536x128, .f32⟩
  | .hbm, ⟨32, _⟩ => ⟨S8x65536x128, .f32⟩
  | .hbm, ⟨33, _⟩ => ⟨S8x65536x48, .f32⟩
  | .hbm, ⟨34, _⟩ => ⟨S8x1x48, .f32⟩
  | .hbm, ⟨35, _⟩ => ⟨S8x65536x48, .f32⟩
  | .hbm, ⟨36, _⟩ => ⟨S8x65536x48, .f32⟩
  | _, _ => ⟨S8x65536x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  slices_S8x65536x1x64_S8x65536x1x48_0_0_0_0 : S8x65536x1x64.Slices ![0, 0, 0, 0] S8x65536x1x48
  slices_S8x65536x1x64_S8x65536x1x16_0_0_0_48 : S8x65536x1x64.Slices ![0, 0, 0, 48] S8x65536x1x16
  bcast_S_S8x65536x1x16 : S_.BroadcastsInDim S8x65536x1x16 (![] : Fin 0 → Fin S8x65536x1x16.rank)
  concatenates_S8x65536x1x48_S8x65536x1x16_S8x65536x1x64_d3 : Shape.Concatenates [S8x65536x1x48, S8x65536x1x16] S8x65536x1x64 3
  shapeCasts_S8x65536x1x64_S8x65536x64 : S8x65536x1x64.ShapeCasts S8x65536x64
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  bcast_S8x48_S8x1x48_0_2 : S8x48.BroadcastsInDim S8x1x48 (![0, 2] : Fin 2 → Fin S8x1x48.rank)
  bcast_S8x1x48_S8x65536x48_0_1_2 : S8x1x48.BroadcastsInDim S8x65536x48 (![0, 1, 2] : Fin 3 → Fin S8x65536x48.rank)
  dot_S8x65536x64_S8x64x128_S8x65536x128_2_1_1_2_0_0_wf : DotDims.WF S8x65536x64 S8x64x128 S8x65536x128 [2] [1] [1] [2] [0] [0]
  dot_S8x65536x128_S8x128x128_S8x65536x128_2_1_1_2_0_0_wf : DotDims.WF S8x65536x128 S8x128x128 S8x65536x128 [2] [1] [1] [2] [0] [0]
  dot_S8x65536x128_S8x128x48_S8x65536x48_2_1_1_2_0_0_wf : DotDims.WF S8x65536x128 S8x128x48 S8x65536x48 [2] [1] [1] [2] [0] [0]

variable [Facts₀]

def dot_S8x65536x64_S8x64x128_S8x65536x128_2_1_1_2_0_0 : DotDims S8x65536x64 S8x64x128 S8x65536x128 where
  lhsContracting := [2]
  rhsContracting := [1]
  lhsNonContracting := [1]
  rhsNonContracting := [2]
  lhsBatch := [0]
  rhsBatch := [0]
  wf := dot_S8x65536x64_S8x64x128_S8x65536x128_2_1_1_2_0_0_wf
def dot_S8x65536x128_S8x128x128_S8x65536x128_2_1_1_2_0_0 : DotDims S8x65536x128 S8x128x128 S8x65536x128 where
  lhsContracting := [2]
  rhsContracting := [1]
  lhsNonContracting := [1]
  rhsNonContracting := [2]
  lhsBatch := [0]
  rhsBatch := [0]
  wf := dot_S8x65536x128_S8x128x128_S8x65536x128_2_1_1_2_0_0_wf
def dot_S8x65536x128_S8x128x48_S8x65536x48_2_1_1_2_0_0 : DotDims S8x65536x128 S8x128x48 S8x65536x48 where
  lhsContracting := [2]
  rhsContracting := [1]
  lhsNonContracting := [1]
  rhsNonContracting := [2]
  lhsBatch := [0]
  rhsBatch := [0]
  wf := dot_S8x65536x128_S8x128x48_S8x65536x48_2_1_1_2_0_0_wf

class Facts : Prop extends Facts₀ where

variable [Facts]
-- ==== Proof.RowMlp.lean ====
/-
  One row of a clipped three-layer perceptron, on the extended reals.

  A row `x` of 64 numbers has its last 16 lanes (48 ≤ i) clipped to [lo, hi]; the clipped row goes through an affine
  layer 64 → 128 and the ramp `max · zero`, a second affine layer 128 → 128 and the ramp, and a third affine layer
  128 → 48 with no ramp. An affine layer is `j ↦ (∑ k, x k * w k j) + b j`: a finite sum on the extended reals, where
  addition is commutative and associative, so the sum has no order to speak of. `lo`, `hi` and `zero` are the three float
  words both programs print (−1, 1 and 0); they stay words here: nothing below depends on their values.

  `mlpAt` reads the row, and the weights of ensemble member `e`, off the seven argument arrays: the output entry
  (e, r, o) depends on row (e, r) of the input and on member `e`'s weights and biases only.
-/
import Idealize.ShloMosaic.PureOps.Ideal
import Idealize.ShloMosaic.Lib.ValueIdx

noncomputable section

namespace Cert.RowMlp

open Idealize.ShloMosaic Idealize.ShloMosaic.ValueIdx

/-- The lower clipping bound: the word of −1. -/
abbrev lo : EReal := Ideal.ofBits .f32 0xBF800000#32
/-- The upper clipping bound: the word of 1. -/
abbrev hi : EReal := Ideal.ofBits .f32 0x3F800000#32
/-- The ramp's floor: the word of 0. -/
abbrev zero : EReal := Ideal.ofBits .f32 0x00000000#32

/-- Lane `i` of the input row: clipped to [lo, hi] on the last 16 lanes, untouched on the first 48. -/
def clipLane (x : Fin 64 → EReal) (i : Fin 64) : EReal :=
  if 48 ≤ i.val then min hi (max lo (x i)) else x i

/-- An affine layer: entry `j` is the inner product of the row with column `j` of the weights, plus the bias. -/
def affine {K N : Nat} (x : Fin K → EReal) (w : Fin K → Fin N → EReal) (b : Fin N → EReal) (j : Fin N) : EReal :=
  (∑ k : Fin K, x k * w k j) + b j

/-- The first hidden row: the clipped input through the first layer and the ramp. -/
def hidden1 (x : Fin 64 → EReal) (w1 : Fin 64 → Fin 128 → EReal) (b1 : Fin 128 → EReal) (h : Fin 128) : EReal :=
  max (affine (clipLane x) w1 b1 h) zero

/-- The second hidden row: the first through the second layer and the ramp. -/
def hidden2 (x : Fin 64 → EReal) (w1 : Fin 64 → Fin 128 → EReal) (b1 : Fin 128 → EReal)
    (w2 : Fin 128 → Fin 128 → EReal) (b2 : Fin 128 → EReal) (k : Fin 128) : EReal :=
  max (affine (hidden1 x w1 b1) w2 b2 k) zero

/-- The output row: the second hidden row through the third layer. -/
def out (x : Fin 64 → EReal) (w1 : Fin 64 → Fin 128 → EReal) (b1 : Fin 128 → EReal)
    (w2 : Fin 128 → Fin 128 → EReal) (b2 : Fin 128 → EReal) (w3 : Fin 128 → Fin 48 → EReal) (b3 : Fin 48 → EReal)
    (o : Fin 48) : EReal :=
  affine (hidden2 x w1 b1 w2 b2) w3 b3 o

/-- Output entry (e, r, o) of the whole computation, from the seven argument arrays: row (e, r) of the input through
    ensemble member `e`'s three layers. -/
def mlpAt (X : (⟨4, ![8, 65536, 1, 64]⟩ : Shape).Idx → EReal)
    (W1 : (⟨3, ![8, 64, 128]⟩ : Shape).Idx → EReal) (B1 : (⟨2, ![8, 128]⟩ : Shape).Idx → EReal)
    (W2 : (⟨3, ![8, 128, 128]⟩ : Shape).Idx → EReal) (B2 : (⟨2, ![8, 128]⟩ : Shape).Idx → EReal)
    (W3 : (⟨3, ![8, 128, 48]⟩ : Shape).Idx → EReal) (B3 : (⟨2, ![8, 48]⟩ : Shape).Idx → EReal)
    (e : Fin 8) (r : Fin 65536) (o : Fin 48) : EReal :=
  out (fun i => X (ix4 e r (0 : Fin 1) i)) (fun i h => W1 (ix3 e i h)) (fun h => B1 (ix2 e h))
    (fun h k => W2 (ix3 e h k)) (fun k => B2 (ix2 e k)) (fun k o' => W3 (ix3 e k o')) (fun o' => B3 (ix2 e o')) o

/-- The whole result array as one function of the seven argument arrays, index by index. -/
def result (X : (⟨4, ![8, 65536, 1, 64]⟩ : Shape).Idx → EReal)
    (W1 : (⟨3, ![8, 64, 128]⟩ : Shape).Idx → EReal) (B1 : (⟨2, ![8, 128]⟩ : Shape).Idx → EReal)
    (W2 : (⟨3, ![8, 128, 128]⟩ : Shape).Idx → EReal) (B2 : (⟨2, ![8, 128]⟩ : Shape).Idx → EReal)
    (W3 : (⟨3, ![8, 128, 48]⟩ : Shape).Idx → EReal) (B3 : (⟨2, ![8, 48]⟩ : Shape).Idx → EReal) :
    (⟨3, ![8, 65536, 48]⟩ : Shape).Idx → EReal :=
  fun j => mlpAt X W1 B1 W2 B2 W3 B3 (j 0) (j 1) (j 2)

/-- An affine layer's entry depends only on the row's, the weights' and the bias's entries. -/
theorem affine_congr {K N : Nat} {x x' : Fin K → EReal} {w w' : Fin K → Fin N → EReal} {b b' : Fin N → EReal}
    (hx : ∀ k, x k = x' k) (hw : ∀ k j, w k j = w' k j) (hb : ∀ j, b j = b' j) (j : Fin N) :
    affine x w b j = affine x' w' b' j := by
  unfold affine
  rw [hb j]
  exact congrArg (· + b' j) (Finset.sum_congr rfl fun k _ => by rw [hx k, hw k j])

/-- The output row depends only on the row and on the weights and biases it is given. -/
theorem out_congr {x x' : Fin 64 → EReal} {w1 w1' : Fin 64 → Fin 128 → EReal} {b1 b1' : Fin 128 → EReal}
    {w2 w2' : Fin 128 → Fin 128 → EReal} {b2 b2' : Fin 128 → EReal} {w3 w3' : Fin 128 → Fin 48 → EReal} {b3 b3' : Fin 48 → EReal}
    (hx : x = x') (h1 : w1 = w1') (hb1 : b1 = b1') (h2 : w2 = w2') (hb2 : b2 = b2') (h3 : w3 = w3') (hb3 : b3 = b3')
    (o : Fin 48) : out x w1 b1 w2 b2 w3 b3 o = out x' w1' b1' w2' b2' w3' b3' o := by
  subst hx h1 hb1 h2 hb2 h3 hb3
  rfl

/-- The mask both programs apply to a lane, as a word: signed `48 ≤ i` on the lane's number as a 32-bit word is
    the plain comparison of naturals, for each of the 64 lanes. -/
theorem lane_ge_48 : ∀ i : Fin 64, IntOp.cmpi .sge (BitVec.ofNat 32 i.val) 48#32 = if 48 ≤ i.val then 1#1 else 0#1 := by
  decide

end Cert.RowMlp

end
-- ==== Proof.RefRows.lean ====
/-
  The reference computes `RowMlp.result`: entry (e, r, o) of its result is row (e, r) of the input, the last 16
  lanes clipped, through ensemble member `e`'s three layers.

  The reference clips by cutting the row in two (lanes 0–47, lanes 48–63), clipping the second piece and joining
  the pieces again; lane `i` of the joined row is lane `i` of the first piece when i < 48 and lane `i − 48` of the
  clipped second piece otherwise, which is `RowMlp.clipLane`. Each batched matrix product is, entry by entry, the
  inner product of a row with a column of member `e`'s weights; each bias is broadcast along the rows.
-/
import proofs.«144239_j25941602468195_2_alg».proof.Proof.Gen.ReferenceIdeal.Read
import proofs.«144239_j25941602468195_2_alg».proof.Proof.RowMlp

noncomputable section

namespace Cert.RefRows

open Cert.ReferenceIdeal Cert.ReferenceIdeal.Gen Cert.ReferenceIdeal.Read Idealize.ShloMosaic Idealize.ShloMosaic.ValueIdx Cert.RowMlp

/-! ## The input row, clipped -/

/-- Dropping the unit axis of the joined rows: entry (e, r, i) of the rank-3 array is entry (e, r, 0, i) of the
    rank-4 one (both are entry (e·65536 + r)·64 + i in row-major order). -/
theorem idx_flat (e : Fin 8) (r : Fin 65536) (i : Fin 64) : idx_main_v4 (ix3 e r i) = ix4 e r (0 : Fin 1) i := by
  have he := e.isLt; have hr := r.isLt; have hi := i.isLt
  funext a; apply Fin.ext
  match a with
  | ⟨0, _⟩ => show ((e.val * 65536 + r.val) * 64 + i.val) / 4194304 = e.val; omega
  | ⟨1, _⟩ => show ((e.val * 65536 + r.val) * 64 + i.val) / 64 % 65536 = r.val; omega
  | ⟨2, _⟩ => rfl
  | ⟨3, _⟩ => show ((e.val * 65536 + r.val) * 64 + i.val) % 64 = i.val; omega

/-- A lane below 48 of the joined row is that lane of the input: it lies in the first piece, which is a plain cut. -/
theorem joined_low (X : (⟨S8x65536x1x64, .f32⟩ : BufTy).Contents (Elt Ideal)) (e : Fin 8) (r : Fin 65536) (i : Fin 64)
    (h : i.val < 48) : val_main_v3 (F := Ideal) X (ix4 e r (0 : Fin 1) i) = X (ix4 e r (0 : Fin 1) i) := by
  unfold val_main_v3
  refine (concatenate_pair_apply_left (t := S8x65536x1x64) (s₁ := S8x65536x1x48) (s₂ := S8x65536x1x16) (3 : Fin 4) _ _ concatenates_S8x65536x1x48_S8x65536x1x16_S8x65536x1x64_d3
    (ix4 e r (0 : Fin 1) i) rfl (ix4 e r (0 : Fin 1) (⟨i.val, h⟩ : Fin 48)) ?_).trans ?_
  · intro b
    match b with
    | ⟨0, _⟩ => rfl
    | ⟨1, _⟩ => rfl
    | ⟨2, _⟩ => rfl
    | ⟨3, _⟩ => rfl
  · rw [val_main_v0_apply]
    refine congrArg X (funext fun a => Fin.ext ?_)
    match a with
    | ⟨0, _⟩ => rfl
    | ⟨1, _⟩ => rfl
    | ⟨2, _⟩ => rfl
    | ⟨3, _⟩ => rfl

/-- A lane from 48 on of the joined row is lane `i − 48` of the second piece: the input's lane `i`, clipped. -/
theorem joined_high (X : (⟨S8x65536x1x64, .f32⟩ : BufTy).Contents (Elt Ideal)) (e : Fin 8) (r : Fin 65536) (i : Fin 64)
    (h : 48 ≤ i.val) : val_main_v3 (F := Ideal) X (ix4 e r (0 : Fin 1) i) = min hi (max lo (X (ix4 e r (0 : Fin 1) i))) := by
  have hi64 := i.isLt
  unfold val_main_v3
  refine (concatenate_pair_apply_right (t := S8x65536x1x64) (s₁ := S8x65536x1x48) (s₂ := S8x65536x1x16) (3 : Fin 4) _ _ concatenates_S8x65536x1x48_S8x65536x1x16_S8x65536x1x64_d3
    (ix4 e r (0 : Fin 1) i) rfl rfl (ix4 e r (0 : Fin 1) (⟨i.val - 48, by omega⟩ : Fin 16)) ?_ ?_).trans ?_
  · intro b hb
    match b with
    | ⟨0, _⟩ => rfl
    | ⟨1, _⟩ => rfl
    | ⟨2, _⟩ => rfl
    | ⟨3, _⟩ => exact absurd rfl hb
  · show i.val - 48 + 48 = i.val
    omega
  · rw [val_main_v2_apply, val_main_call0_v4_apply, val_main_call0_v3_apply, val_main_cst_0_apply,
      val_main_call0_v2_apply, val_main_call0_v1_apply, val_main_call0_v0_apply, val_main_cst_apply, val_main_v1_apply]
    have hidx : idx_main_v1 (ix4 e r (0 : Fin 1) (⟨i.val - 48, by omega⟩ : Fin 16)) = ix4 e r (0 : Fin 1) i := by
      funext a; apply Fin.ext
      match a with
      | ⟨0, _⟩ => rfl
      | ⟨1, _⟩ => rfl
      | ⟨2, _⟩ => rfl
      | ⟨3, _⟩ => show 48 + (i.val - 48) = i.val; omega
    rw [hidx]
    rfl

/-- Row (e, r) of the reference's clipped input is the clipped row of the input array. -/
theorem clipped_row (X : (⟨S8x65536x1x64, .f32⟩ : BufTy).Contents (Elt Ideal)) (e : Fin 8) (r : Fin 65536) (i : Fin 64) :
    val_main_v4 (F := Ideal) X (ix3 e r i) = clipLane (fun i' => X (ix4 e r (0 : Fin 1) i')) i := by
  rw [val_main_v4_apply, idx_flat]
  unfold clipLane
  by_cases h : 48 ≤ i.val
  · rw [if_pos h]; exact joined_high X e r i h
  · rw [if_neg h]; exact joined_low X e r i (by omega)

/-! ## The three layers -/

/-- The first bias, broadcast along the rows: entry (e, r, h) is entry (e, h) of the bias. -/
theorem bias1_row (B1 : (⟨S8x128, .f32⟩ : BufTy).Contents (Elt Ideal)) (e : Fin 8) (r : Fin 65536) (h : Fin 128) :
    val_main_v7 (F := Ideal) B1 (ix3 e r h) = B1 (ix2 e h) := by
  rw [val_main_v7_apply, val_main_v6_apply]
  refine congrArg B1 (funext fun a => Fin.ext ?_)
  match a with
  | ⟨0, _⟩ => rfl
  | ⟨1, _⟩ => rfl

/-- The second bias, likewise. -/
theorem bias2_row (B2 : (⟨S8x128, .f32⟩ : BufTy).Contents (Elt Ideal)) (e : Fin 8) (r : Fin 65536) (k : Fin 128) :
    val_main_v12 (F := Ideal) B2 (ix3 e r k) = B2 (ix2 e k) := by
  rw [val_main_v12_apply, val_main_v11_apply]
  refine congrArg B2 (funext fun a => Fin.ext ?_)
  match a with
  | ⟨0, _⟩ => rfl
  | ⟨1, _⟩ => rfl

/-- The third bias, likewise. -/
theorem bias3_row (B3 : (⟨S8x48, .f32⟩ : BufTy).Contents (Elt Ideal)) (e : Fin 8) (r : Fin 65536) (o : Fin 48) :
    val_main_v17 (F := Ideal) B3 (ix3 e r o) = B3 (ix2 e o) := by
  rw [val_main_v17_apply, val_main_v16_apply]
  refine congrArg B3 (funext fun a => Fin.ext ?_)
  match a with
  | ⟨0, _⟩ => rfl
  | ⟨1, _⟩ => rfl

/-- Entry (e, r, h) after the first layer and the ramp is the first hidden row of row (e, r): the batched product's
    entry is the inner product of the clipped row with column `h` of member `e`'s first weights. -/
theorem hidden1_row (X : (⟨S8x65536x1x64, .f32⟩ : BufTy).Contents (Elt Ideal)) (W1 : (⟨S8x64x128, .f32⟩ : BufTy).Contents (Elt Ideal))
    (B1 : (⟨S8x128, .f32⟩ : BufTy).Contents (Elt Ideal)) (e : Fin 8) (r : Fin 65536) (h : Fin 128) :
    val_main_v9 (F := Ideal) X W1 B1 (ix3 e r h)
      = hidden1 (fun i => X (ix4 e r (0 : Fin 1) i)) (fun i h' => W1 (ix3 e i h')) (fun h' => B1 (ix2 e h')) h := by
  have hl : ∀ k : Fin 64, lidx_main_v5 (ix3 e r h) k = ix3 e r k := fun k => funext fun a => Fin.ext (by
    match a with
    | ⟨0, _⟩ => rfl
    | ⟨1, _⟩ => rfl
    | ⟨2, _⟩ => rfl)
  have hr : ∀ k : Fin 64, ridx_main_v5 (ix3 e r h) k = ix3 e k h := fun k => funext fun a => Fin.ext (by
    match a with
    | ⟨0, _⟩ => rfl
    | ⟨1, _⟩ => rfl
    | ⟨2, _⟩ => rfl)
  have hs : (∑ k : Fin 64, val_main_v4 (F := Ideal) X (lidx_main_v5 (ix3 e r h) k) * W1 (ridx_main_v5 (ix3 e r h) k))
      = ∑ k : Fin 64, clipLane (fun i => X (ix4 e r (0 : Fin 1) i)) k * W1 (ix3 e k h) :=
    Finset.sum_congr rfl fun k _ => by rw [hl k, hr k, clipped_row]
  rw [val_main_v9_apply, val_main_v8_apply, val_main_v5_apply, bias1_row, val_main_call1_v0_apply, val_main_call1_cst_apply, hs]
  rfl

/-- Entry (e, r, k) after the second layer and the ramp is the second hidden row of row (e, r). -/
theorem hidden2_row (X : (⟨S8x65536x1x64, .f32⟩ : BufTy).Contents (Elt Ideal)) (W1 : (⟨S8x64x128, .f32⟩ : BufTy).Contents (Elt Ideal))
    (B1 : (⟨S8x128, .f32⟩ : BufTy).Contents (Elt Ideal)) (W2 : (⟨S8x128x128, .f32⟩ : BufTy).Contents (Elt Ideal))
    (B2 : (⟨S8x128, .f32⟩ : BufTy).Contents (Elt Ideal)) (e : Fin 8) (r : Fin 65536) (k : Fin 128) :
    val_main_v14 (F := Ideal) X W1 B1 W2 B2 (ix3 e r k)
      = hidden2 (fun i => X (ix4 e r (0 : Fin 1) i)) (fun i h' => W1 (ix3 e i h')) (fun h' => B1 (ix2 e h'))
          (fun h' k' => W2 (ix3 e h' k')) (fun k' => B2 (ix2 e k')) k := by
  have hl : ∀ h : Fin 128, lidx_main_v10 (ix3 e r k) h = ix3 e r h := fun h => funext fun a => Fin.ext (by
    match a with
    | ⟨0, _⟩ => rfl
    | ⟨1, _⟩ => rfl
    | ⟨2, _⟩ => rfl)
  have hr : ∀ h : Fin 128, ridx_main_v10 (ix3 e r k) h = ix3 e h k := fun h => funext fun a => Fin.ext (by
    match a with
    | ⟨0, _⟩ => rfl
    | ⟨1, _⟩ => rfl
    | ⟨2, _⟩ => rfl)
  have hs : (∑ h : Fin 128, val_main_v9 (F := Ideal) X W1 B1 (lidx_main_v10 (ix3 e r k) h) * W2 (ridx_main_v10 (ix3 e r k) h))
      = ∑ h : Fin 128, hidden1 (fun i => X (ix4 e r (0 : Fin 1) i)) (fun i h' => W1 (ix3 e i h')) (fun h' => B1 (ix2 e h')) h * W2 (ix3 e h k) :=
    Finset.sum_congr rfl fun h _ => by rw [hl h, hr h, hidden1_row]
  rw [val_main_v14_apply, val_main_v13_apply, val_main_v10_apply, bias2_row, val_main_call2_v0_apply, val_main_call2_cst_apply, hs]
  rfl

/-- Entry (e, r, o) of the reference's result is the output row of row (e, r), at `o`. -/
theorem out_row (X : (⟨S8x65536x1x64, .f32⟩ : BufTy).Contents (Elt Ideal)) (W1 : (⟨S8x64x128, .f32⟩ : BufTy).Contents (Elt Ideal))
    (B1 : (⟨S8x128, .f32⟩ : BufTy).Contents (Elt Ideal)) (W2 : (⟨S8x128x128, .f32⟩ : BufTy).Contents (Elt Ideal))
    (B2 : (⟨S8x128, .f32⟩ : BufTy).Contents (Elt Ideal)) (W3 : (⟨S8x128x48, .f32⟩ : BufTy).Contents (Elt Ideal))
    (B3 : (⟨S8x48, .f32⟩ : BufTy).Contents (Elt Ideal)) (e : Fin 8) (r : Fin 65536) (o : Fin 48) :
    val_main_v18 (F := Ideal) X W1 B1 W2 B2 W3 B3 (ix3 e r o) = mlpAt X W1 B1 W2 B2 W3 B3 e r o := by
  have hl : ∀ k : Fin 128, lidx_main_v15 (ix3 e r o) k = ix3 e r k := fun k => funext fun a => Fin.ext (by
    match a with
    | ⟨0, _⟩ => rfl
    | ⟨1, _⟩ => rfl
    | ⟨2, _⟩ => rfl)
  have hr : ∀ k : Fin 128, ridx_main_v15 (ix3 e r o) k = ix3 e k o := fun k => funext fun a => Fin.ext (by
    match a with
    | ⟨0, _⟩ => rfl
    | ⟨1, _⟩ => rfl
    | ⟨2, _⟩ => rfl)
  have hs : (∑ k : Fin 128, val_main_v14 (F := Ideal) X W1 B1 W2 B2 (lidx_main_v15 (ix3 e r o) k) * W3 (ridx_main_v15 (ix3 e r o) k))
      = ∑ k : Fin 128, hidden2 (fun i => X (ix4 e r (0 : Fin 1) i)) (fun i h' => W1 (ix3 e i h')) (fun h' => B1 (ix2 e h'))
          (fun h' k' => W2 (ix3 e h' k')) (fun k' => B2 (ix2 e k')) k * W3 (ix3 e k o) :=
    Finset.sum_congr rfl fun k _ => by rw [hl k, hr k, hidden2_row]
  rw [val_main_v18_apply, val_main_v15_apply, bias3_row, hs]
  rfl

/-- The reference's result stage IS `RowMlp.result` of the seven argument arrays. -/
theorem reference_is_result (X : (⟨S8x65536x1x64, .f32⟩ : BufTy).Contents (Elt Ideal)) (W1 : (⟨S8x64x128, .f32⟩ : BufTy).Contents (Elt Ideal))
    (B1 : (⟨S8x128, .f32⟩ : BufTy).Contents (Elt Ideal)) (W2 : (⟨S8x128x128, .f32⟩ : BufTy).Contents (Elt Ideal))
    (B2 : (⟨S8x128, .f32⟩ : BufTy).Contents (Elt Ideal)) (W3 : (⟨S8x128x48, .f32⟩ : BufTy).Contents (Elt Ideal))
    (B3 : (⟨S8x48, .f32⟩ : BufTy).Contents (Elt Ideal)) :
    val_main_v18 (F := Ideal) X W1 B1 W2 B2 W3 B3 = result X W1 B1 W2 B2 W3 B3 := by
  funext j
  obtain ⟨e, r, o, rfl⟩ : ∃ (e : Fin 8) (r : Fin 65536) (o : Fin 48), j = ix3 e r o := ⟨j 0, j 1, j 2, eq_ix3 j⟩
  exact out_row X W1 B1 W2 B2 W3 B3 e r o

end Cert.RefRows

end
-- ==== Proof.BlockRows.lean ====
/-
  One block of the kernel computes `RowMlp.out` row by row.

  At a grid point the body holds a [1, 8192, 64] block of input rows and one ensemble member's weights and biases
  (each with a leading unit axis). It drops the unit axes, clips the last 16 lanes of every row (a lane mask chooses
  between the row and its clipped copy), and runs three matrix products into zero accumulators, each followed by the
  bias row broadcast over the 8192 rows and, for the first two, the ramp. Entry (0, r, o) of what it stores is
  therefore `RowMlp.out` of row `r` of the input block and that member's weights, at `o`: a matrix product's entry
  (r, j) is the inner product of row `r` with column `j`, and the zero accumulator adds nothing.
-/
import proofs.«144239_j25941602468195_2_alg».proof.Proof.Gen.KernelIdeal.Skeleton
import proofs.«144239_j25941602468195_2_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

namespace Cert.BlockRows

open Cert.KernelIdeal Cert.KernelIdeal.Gen Idealize.ShloMosaic Idealize.ShloMosaic.ValueIdx Cert.RowMlp

/-! ## The three matrix products, entry by entry -/

/-- On the left factor's row axis the product's left index is the result's row. -/
theorem lhs1_row (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide),
    dif_pos (show (0 : Fin S8192x64.rank) ∈ dot_S8192x64_S64x128_S8192x128_1_0_0_1_n_n.lhsNonContracting by decide)]
  rfl

/-- On the right factor's column axis the product's right index is the result's column. -/
theorem rhs1_col (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide),
    dif_pos (show (1 : Fin S64x128.rank) ∈ dot_S8192x64_S64x128_S8192x128_1_0_0_1_n_n.rhsNonContracting by decide)]
  rfl

/-- A [8192, 64] by [64, 128] matrix product into the zero accumulator, at (r, j): the inner product of row `r` of the left
    factor with column `j` of the right one (the one contracted axis re-indexed by its coordinate). -/
theorem matmul1_at (a : FVec Ideal S8192x64 .bf16) (w : FVec Ideal S64x128 .bf16) (r : Fin 8192) (j : Fin 128) :
    matmul dot_S8192x64_S64x128_S8192x128_1_0_0_1_n_n none a w (constant (F := Ideal) S8192x128 .f32 0x00000000#32) (ix2 r j)
      = ∑ k : Fin 64, a (ix2 r k) * w (ix2 k j) := by
  refine (Ideal.matmul_constant_zero_apply dot_S8192x64_S64x128_S8192x128_1_0_0_1_n_n none a w (ix2 r j)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 r j) ((contrEquiv1 dot_S8192x64_S64x128_S8192x128_1_0_0_1_n_n 64 rfl rfl).symm k) = ix2 r k :=
    funext fun ax => Fin.ext (by
      match ax with
      | ⟨0, _⟩ => exact lhs1_row _ _
      | ⟨1, _⟩ => exact (dot_S8192x64_S64x128_S8192x128_1_0_0_1_n_n.lhsIdx_val_of_single rfl _ _).trans hk)
  have er : dot_S8192x64_S64x128_S8192x128_1_0_0_1_n_n.rhsIdx (ix2 r j) ((contrEquiv1 dot_S8192x64_S64x128_S8192x128_1_0_0_1_n_n 64 rfl rfl).symm k) = ix2 k j :=
    funext fun ax => Fin.ext (by
      match ax with
      | ⟨0, _⟩ => exact (dot_S8192x64_S64x128_S8192x128_1_0_0_1_n_n.rhsIdx_val_of_single rfl _ _).trans hk
      | ⟨1, _⟩ => exact rhs1_col _ _)
  rw [el, er]

/-- On the left factor's row axis the product's left index is the result's row. -/
theorem lhs2_row (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- On the right factor's column axis the product's right index is the result's column. -/
theorem rhs2_col (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- A [8192, 128] by [128, 128] matrix product into the zero accumulator, at (r, j): the inner product of row `r` of the left
    factor with column `j` of the right one (the one contracted axis re-indexed by its coordinate). -/
theorem matmul2_at (a : FVec Ideal S8192x128 .bf16) (w : FVec Ideal S128x128 .bf16) (r : Fin 8192) (j : Fin 128) :
    matmul dot_S8192x128_S128x128_S8192x128_1_0_0_1_n_n none a w (constant (F := Ideal) S8192x128 .f32 0x00000000#32) (ix2 r j)
      = ∑ k : Fin 128, a (ix2 r k) * w (ix2 k j) := by
  refine (Ideal.matmul_constant_zero_apply dot_S8192x128_S128x128_S8192x128_1_0_0_1_n_n none a w (ix2 r j)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r j) ((contrEquiv1 dot_S8192x128_S128x128_S8192x128_1_0_0_1_n_n 128 rfl rfl).symm k) = ix2 r k :=
    funext fun ax => Fin.ext (by
      match ax with
      | ⟨0, _⟩ => exact lhs2_row _ _
      | ⟨1, _⟩ => exact (dot_S8192x128_S128x128_S8192x128_1_0_0_1_n_n.lhsIdx_val_of_single rfl _ _).trans hk)
  have er : dot_S8192x128_S128x128_S8192x128_1_0_0_1_n_n.rhsIdx (ix2 r j) ((contrEquiv1 dot_S8192x128_S128x128_S8192x128_1_0_0_1_n_n 128 rfl rfl).symm k) = ix2 k j :=
    funext fun ax => Fin.ext (by
      match ax with
      | ⟨0, _⟩ => exact (dot_S8192x128_S128x128_S8192x128_1_0_0_1_n_n.rhsIdx_val_of_single rfl _ _).trans hk
      | ⟨1, _⟩ => exact rhs2_col _ _)
  rw [el, er]

/-- On the left factor's row axis the product's left index is the result's row. -/
theorem lhs3_row (i : S8192x48.Idx) (q : dot_S8192x128_S128x48_S8192x48_1_0_0_1_n_n.contr.Idx) : (dot_S8192x128_S128x48_S8192x48_1_0_0_1_n_n.lhsIdx i q 0).val = (i 0).val := by
  unfold DotDims.lhsIdx
  rw [dif_neg (show ¬(0 : Fin S8192x128.rank) ∈ dot_S8192x128_S128x48_S8192x48_1_0_0_1_n_n.lhsBatch by decide),
    dif_pos (show (0 : Fin S8192x128.rank) ∈ dot_S8192x128_S128x48_S8192x48_1_0_0_1_n_n.lhsNonContracting by decide)]
  rfl

/-- On the right factor's column axis the product's right index is the result's column. -/
theorem rhs3_col (i : S8192x48.Idx) (q : dot_S8192x128_S128x48_S8192x48_1_0_0_1_n_n.contr.Idx) : (dot_S8192x128_S128x48_S8192x48_1_0_0_1_n_n.rhsIdx i q 1).val = (i 1).val := by
  unfold DotDims.rhsIdx
  rw [dif_neg (show ¬(1 : Fin S128x48.rank) ∈ dot_S8192x128_S128x48_S8192x48_1_0_0_1_n_n.rhsBatch by decide),
    dif_pos (show (1 : Fin S128x48.rank) ∈ dot_S8192x128_S128x48_S8192x48_1_0_0_1_n_n.rhsNonContracting by decide)]
  rfl

/-- A [8192, 128] by [128, 48] matrix product into the zero accumulator, at (r, j): the inner product of row `r` of the left
    factor with column `j` of the right one (the one contracted axis re-indexed by its coordinate). -/
theorem matmul3_at (a : FVec Ideal S8192x128 .bf16) (w : FVec Ideal S128x48 .bf16) (r : Fin 8192) (j : Fin 48) :
    matmul dot_S8192x128_S128x48_S8192x48_1_0_0_1_n_n none a w (constant (F := Ideal) S8192x48 .f32 0x00000000#32) (ix2 r j)
      = ∑ k : Fin 128, a (ix2 r k) * w (ix2 k j) := by
  refine (Ideal.matmul_constant_zero_apply dot_S8192x128_S128x48_S8192x48_1_0_0_1_n_n none a w (ix2 r j)).trans ?_
  rw [← Equiv.sum_comp (contrEquiv1 dot_S8192x128_S128x48_S8192x48_1_0_0_1_n_n 128 rfl rfl).symm]
  refine Finset.sum_congr rfl fun k _ => ?_
  have hk := contrEquiv1_symm_val dot_S8192x128_S128x48_S8192x48_1_0_0_1_n_n 128 rfl rfl k
  have el : dot_S8192x128_S128x48_S8192x48_1_0_0_1_n_n.lhsIdx (ix2 r j) ((contrEquiv1 dot_S8192x128_S128x48_S8192x48_1_0_0_1_n_n 128 rfl rfl).symm k) = ix2 r k :=
    funext fun ax => Fin.ext (by
      match ax with
      | ⟨0, _⟩ => exact lhs3_row _ _
      | ⟨1, _⟩ => exact (dot_S8192x128_S128x48_S8192x48_1_0_0_1_n_n.lhsIdx_val_of_single rfl _ _).trans hk)
  have er : dot_S8192x128_S128x48_S8192x48_1_0_0_1_n_n.rhsIdx (ix2 r j) ((contrEquiv1 dot_S8192x128_S128x48_S8192x48_1_0_0_1_n_n 128 rfl rfl).symm k) = ix2 k j :=
    funext fun ax => Fin.ext (by
      match ax with
      | ⟨0, _⟩ => exact (dot_S8192x128_S128x48_S8192x48_1_0_0_1_n_n.rhsIdx_val_of_single rfl _ _).trans hk
      | ⟨1, _⟩ => exact rhs3_col _ _)
  rw [el, er]

/-! ## The clipped rows -/

/-- Lane `i` of row `r` after the masked clip: the mask is one exactly on the lanes from 48 on, where the clipped copy is
    chosen; elsewhere the row itself. -/
theorem clip_at (v : FVec Ideal S8192x64 .f32) (hio : S8192x64.Iotas .tc 32 [1]) (ht : FTy.bf16.bits < FTy.f32.bits)
    (r : Fin 8192) (i : Fin 64) :
    (truncf .bf16 (select (cmpi .sge (iota .tc S8192x64 32 [1] hio) (broadcast S8192x64 48#32))
        (minimumf (broadcast S8192x64 (Scalar.ofBits (F := Ideal) .f32 0x3F800000#32))
          (maximumf (broadcast S8192x64 (Scalar.ofBits (F := Ideal) .f32 0xBF800000#32)) v)) v) ht : FVec Ideal S8192x64 .bf16) (ix2 r i)
      = clipLane (fun i' => v (ix2 r i')) i := by
  show Scalar.select (IntOp.cmpi .sge (iota .tc S8192x64 32 [1] hio (ix2 r i)) 48#32) (min hi (max lo (v (ix2 r i)))) (v (ix2 r i)) = _
  rw [iota_single_apply]
  show Scalar.select (IntOp.cmpi .sge (BitVec.ofNat 32 i.val) 48#32) (min hi (max lo (v (ix2 r i)))) (v (ix2 r i)) = _
  rw [lane_ge_48 i]
  unfold clipLane
  by_cases h : 48 ≤ i.val
  · rw [if_pos h, if_pos h]; exact select_one _ _
  · rw [if_neg h, if_neg h]; exact select_zero _ _

/-! ## The layers -/

/-- A ramped layer of a block, at (r, j): the [8192, 64] rows through [64, 128] weights, the bias row added to every row, the
    ramp; the change of float format is the identity. -/
theorem ramp_layer1_at (a : FVec Ideal S8192x64 .bf16) (w : FVec Ideal S64x128 .bf16) (b : FVec Ideal S1x128 .f32)
    (hb : S1x128.Broadcasts S8192x128) (ht : FTy.bf16.bits < FTy.f32.bits) (r : Fin 8192) (j : Fin 128) :
    (truncf .bf16 (maximumf (addf (matmul dot_S8192x64_S64x128_S8192x128_1_0_0_1_n_n none a w (constant (F := Ideal) S8192x128 .f32 0x00000000#32))
        (broadcastTo S8192x128 b hb)) (broadcast S8192x128 (Scalar.ofBits (F := Ideal) .f32 0x00000000#32))) ht : FVec Ideal S8192x128 .bf16) (ix2 r j)
      = max (affine (fun k => a (ix2 r k)) (fun k j' => w (ix2 k j')) (fun j' => b (ix2 (0 : Fin 1) j')) j) zero := by
  show max (matmul dot_S8192x64_S64x128_S8192x128_1_0_0_1_n_n none a w (constant (F := Ideal) S8192x128 .f32 0x00000000#32) (ix2 r j)
      + broadcastTo S8192x128 b hb (ix2 r j)) zero = _
  rw [matmul1_at, broadcastTo_1b_ab_apply]
  rfl

/-- A ramped layer of a block, at (r, j): the [8192, 128] rows through [128, 128] weights, the bias row added to every row, the
    ramp; the change of float format is the identity. -/
theorem ramp_layer2_at (a : FVec Ideal S8192x128 .bf16) (w : FVec Ideal S128x128 .bf16) (b : FVec Ideal S1x128 .f32)
    (hb : S1x128.Broadcasts S8192x128) (ht : FTy.bf16.bits < FTy.f32.bits) (r : Fin 8192) (j : Fin 128) :
    (truncf .bf16 (maximumf (addf (matmul dot_S8192x128_S128x128_S8192x128_1_0_0_1_n_n none a w (constant (F := Ideal) S8192x128 .f32 0x00000000#32))
        (broadcastTo S8192x128 b hb)) (broadcast S8192x128 (Scalar.ofBits (F := Ideal) .f32 0x00000000#32))) ht : FVec Ideal S8192x128 .bf16) (ix2 r j)
      = max (affine (fun k => a (ix2 r k)) (fun k j' => w (ix2 k j')) (fun j' => b (ix2 (0 : Fin 1) j')) j) zero := by
  show max (matmul dot_S8192x128_S128x128_S8192x128_1_0_0_1_n_n none a w (constant (F := Ideal) S8192x128 .f32 0x00000000#32) (ix2 r j)
      + broadcastTo S8192x128 b hb (ix2 r j)) zero = _
  rw [matmul2_at, broadcastTo_1b_ab_apply]
  rfl

/-- The last layer of a block, at (r, o): no ramp. -/
theorem layer3_at (a : FVec Ideal S8192x128 .bf16) (w : FVec Ideal S128x48 .bf16) (b : FVec Ideal S1x48 .f32)
    (hb : S1x48.Broadcasts S8192x48) (r : Fin 8192) (o : Fin 48) :
    addf (matmul dot_S8192x128_S128x48_S8192x48_1_0_0_1_n_n none a w (constant (F := Ideal) S8192x48 .f32 0x00000000#32)) (broadcastTo S8192x48 b hb) (ix2 r o)
      = affine (fun k => a (ix2 r k)) (fun k o' => w (ix2 k o')) (fun o' => b (ix2 (0 : Fin 1) o')) o := by
  show matmul dot_S8192x128_S128x48_S8192x48_1_0_0_1_n_n none a w (constant (F := Ideal) S8192x48 .f32 0x00000000#32) (ix2 r o) + broadcastTo S8192x48 b hb (ix2 r o) = _
  rw [matmul3_at, broadcastTo_1b_ab_apply]
  rfl

/-! ## The body's values -/

/-- The second hidden block, at (r, k): the second hidden row of row `r` of the input block. -/
theorem hidden2_at (x0 : FVec Ideal S1x8192x64 .f32) (x1 : FVec Ideal S1x64x128 .bf16) (x2 : FVec Ideal S1x1x128 .f32)
    (x3 : FVec Ideal S1x128x128 .bf16) (x4 : FVec Ideal S1x1x128 .f32) (r : Fin 8192) (k : Fin 128) :
    k0_pay2 (F := Ideal) x0 x1 x2 x3 x4 (ix2 r k)
      = hidden2 (fun i => x0 (ix3 (0 : Fin 1) r i)) (fun i h => x1 (ix3 (0 : Fin 1) i h)) (fun h => x2 (ix3 (0 : Fin 1) (0 : Fin 1) h))
          (fun h k' => x3 (ix3 (0 : Fin 1) h k')) (fun k' => x4 (ix3 (0 : Fin 1) (0 : Fin 1) k')) k := by
  refine (ramp_layer2_at _ _ _ _ _ r k).trans ?_
  unfold hidden2
  refine congrArg (fun z => max z zero) (affine_congr (fun h => ?_) (fun h k' => ?_) (fun k' => ?_) k)
  · refine (ramp_layer1_at _ _ _ _ _ r h).trans ?_
    unfold hidden1
    refine congrArg (fun z => max z zero) (affine_congr (fun i => ?_) (fun i h' => ?_) (fun h' => ?_) h)
    · refine (clip_at _ _ _ r i).trans ?_
      exact congrArg (fun f => clipLane f i) (funext fun i' => shapeCast_1ab_ab_apply x0 _ r i')
    · exact shapeCast_1ab_ab_apply x1 _ i h'
    · exact shapeCast_1ab_ab_apply x2 _ (0 : Fin 1) h'
  · exact shapeCast_1ab_ab_apply x3 _ h k'
  · exact shapeCast_1ab_ab_apply x4 _ (0 : Fin 1) k'

/-- What the body stores, at (0, r, o): the output row of row `r` of the input block, at `o`. -/
theorem stored_at (x0 : FVec Ideal S1x8192x64 .f32) (x1 : FVec Ideal S1x64x128 .bf16) (x2 : FVec Ideal S1x1x128 .f32)
    (x3 : FVec Ideal S1x128x128 .bf16) (x4 : FVec Ideal S1x1x128 .f32) (x5 : FVec Ideal S1x128x48 .bf16)
    (x6 : FVec Ideal S1x1x48 .f32) (r : Fin 8192) (o : Fin 48) :
    k0_pay1 (F := Ideal) (k0_pay2 x0 x1 x2 x3 x4) (k0_pay3 x5) x6 (ix3 (0 : Fin 1) r o)
      = out (fun i => x0 (ix3 (0 : Fin 1) r i)) (fun i h => x1 (ix3 (0 : Fin 1) i h)) (fun h => x2 (ix3 (0 : Fin 1) (0 : Fin 1) h))
          (fun h k => x3 (ix3 (0 : Fin 1) h k)) (fun k => x4 (ix3 (0 : Fin 1) (0 : Fin 1) k))
          (fun k o' => x5 (ix3 (0 : Fin 1) k o')) (fun o' => x6 (ix3 (0 : Fin 1) (0 : Fin 1) o')) o := by
  unfold k0_pay1
  refine (shapeCast_ab_1ab_apply (α := EReal) _ _ (0 : Fin 1) r o).trans ?_
  refine (layer3_at _ _ _ _ r o).trans ?_
  unfold out
  exact affine_congr (fun k => hidden2_at x0 x1 x2 x3 x4 r k) (fun k o' => shapeCast_1ab_ab_apply x5 _ k o')
    (fun o' => shapeCast_1ab_ab_apply x6 _ (0 : Fin 1) o') o

end Cert.BlockRows

end
-- ==== Proof.WholeArray.lean ====
/-
  The kernel's result array is `RowMlp.result` of the seven argument arrays.

  The grid has 8 × 8 points; point (e, b) works on ensemble member `e` and on rows b·8192 … b·8192 + 8191 of that
  member's input. Before the region the host drops the input's unit axis, puts a unit axis into each bias and
  rewrites the weights in a narrower float format (the same numbers on the extended reals). So at point (e, b) the
  input block's row `r` is row (e, b·8192 + r) of the input, and the weight and bias blocks are member `e`'s: by the
  block computation the point writes back block (e, b) of `RowMlp.result`. The 64 blocks tile the result array (row R of
  member `e` lies in block (e, R / 8192)), so after the run the array IS `RowMlp.result`.
-/
import proofs.«144239_j25941602468195_2_alg».proof.Proof.Gen.KernelIdeal.Value
import proofs.«144239_j25941602468195_2_alg».proof.Proof.BlockRows
import Idealize.ShloMosaic.Lib.StableHlo.Run

noncomputable section

namespace Cert.WholeArray

open Cert.KernelIdeal Cert.KernelIdeal.Gen Idealize.ShloMosaic Idealize.ShloMosaic.TcCoe Idealize.SL.Sem
open Idealize.ShloMosaic.ValueIdx Cert.RowMlp
open Idealize.ShloMosaic.Pipeline (Dat)

variable (m : (ℓ : Loc nD τ sig) → Buf (Elt Ideal) ℓ) (ρ : Dev nD → PrngReg)

/-! ## The arrays the region finds: what the host wrote before it -/

/-- The rows the region reads are the input with its unit axis dropped: entry (e, R, i) is the input's (e, R, 0, i). -/
theorem rows_at (c : Dev nD) (e : Fin 8) (R : Fin 65536) (i : Fin 64) :
    (V m c main_v0 : S8x65536x64.Idx → EReal) (ix3 e R i) = m ((c : Thread nD τ).loc main_arg0) (ix4 e R (0 : Fin 1) i) := by
  have hV : (V m c main_v0 : S8x65536x64.Idx → EReal)
      = shapeCast S8x65536x64 (m ((c : Thread nD τ).loc main_arg0)) shapeCasts_S8x65536x1x64_S8x65536x64 := by
    dsimp only [V, hostOps0]; after_results <;> rfl
  rw [hV]
  refine shapeCast_apply _ _ (ix3 e R i) (ix4 e R (0 : Fin 1) i) ?_
  rw [Shape.rowMajor_val_four, Shape.rowMajor_val_three]
  show ((e.val * 65536 + R.val) * 1 + 0) * 64 + i.val = (e.val * 65536 + R.val) * 64 + i.val
  omega

/-- The first bias with a unit axis put in: entry (e, 0, h) is the bias's (e, h). -/
theorem bias1_at (c : Dev nD) (e : Fin 8) (h : Fin 128) :
    (V m c main_v1 : S8x1x128.Idx → EReal) (ix3 e (0 : Fin 1) h) = m ((c : Thread nD τ).loc main_arg2) (ix2 e h) := by
  have hV : (V m c main_v1 : S8x1x128.Idx → EReal)
      = shapeCast S8x1x128 (m ((c : Thread nD τ).loc main_arg2)) shapeCasts_S8x128_S8x1x128 := by
    dsimp only [V, hostOps0]; after_results <;> rfl
  rw [hV]
  refine shapeCast_apply _ _ (ix3 e (0 : Fin 1) h) (ix2 e h) ?_
  rw [Shape.rowMajor_val_two, Shape.rowMajor_val_three]
  show e.val * 128 + h.val = (e.val * 1 + 0) * 128 + h.val
  omega

/-- The second bias, likewise. -/
theorem bias2_at (c : Dev nD) (e : Fin 8) (h : Fin 128) :
    (V m c main_v2 : S8x1x128.Idx → EReal) (ix3 e (0 : Fin 1) h) = m ((c : Thread nD τ).loc main_arg4) (ix2 e h) := by
  have hV : (V m c main_v2 : S8x1x128.Idx → EReal)
      = shapeCast S8x1x128 (m ((c : Thread nD τ).loc main_arg4)) shapeCasts_S8x128_S8x1x128 := by
    dsimp only [V, hostOps0]; after_results <;> rfl
  rw [hV]
  refine shapeCast_apply _ _ (ix3 e (0 : Fin 1) h) (ix2 e h) ?_
  rw [Shape.rowMajor_val_two, Shape.rowMajor_val_three]
  show e.val * 128 + h.val = (e.val * 1 + 0) * 128 + h.val
  omega

/-- The third bias, likewise. -/
theorem bias3_at (c : Dev nD) (e : Fin 8) (h : Fin 48) :
    (V m c main_v3 : S8x1x48.Idx → EReal) (ix3 e (0 : Fin 1) h) = m ((c : Thread nD τ).loc main_arg6) (ix2 e h) := by
  have hV : (V m c main_v3 : S8x1x48.Idx → EReal)
      = shapeCast S8x1x48 (m ((c : Thread nD τ).loc main_arg6)) shapeCasts_S8x48_S8x1x48 := by
    dsimp only [V, hostOps0]; after_results <;> rfl
  rw [hV]
  refine shapeCast_apply _ _ (ix3 e (0 : Fin 1) h) (ix2 e h) ?_
  rw [Shape.rowMajor_val_two, Shape.rowMajor_val_three]
  show e.val * 48 + h.val = (e.val * 1 + 0) * 48 + h.val
  omega

/-- The first weights in the narrower float format: the same numbers. -/
theorem weights1_at (c : Dev nD) (j : S8x64x128.Idx) :
    (V m c main_v4 : S8x64x128.Idx → EReal) j = m ((c : Thread nD τ).loc main_arg1) j := by
  have hV : (V m c main_v4 : S8x64x128.Idx → EReal)
      = (truncf .bf16 (m ((c : Thread nD τ).loc main_arg1) : FVec Ideal S8x64x128 .f32) bitsLt_bf16_f32 : FVec Ideal S8x64x128 .bf16) := by
    dsimp only [V, hostOps0]; after_results <;> rfl
  rw [hV]
  rfl

/-- The second weights, likewise. -/
theorem weights2_at (c : Dev nD) (j : S8x128x128.Idx) :
    (V m c main_v5 : S8x128x128.Idx → EReal) j = m ((c : Thread nD τ).loc main_arg3) j := by
  have hV : (V m c main_v5 : S8x128x128.Idx → EReal)
      = (truncf .bf16 (m ((c : Thread nD τ).loc main_arg3) : FVec Ideal S8x128x128 .f32) bitsLt_bf16_f32 : FVec Ideal S8x128x128 .bf16) := by
    dsimp only [V, hostOps0]; after_results <;> rfl
  rw [hV]
  rfl

/-- The third weights, likewise. -/
theorem weights3_at (c : Dev nD) (j : S8x128x48.Idx) :
    (V m c main_v6 : S8x128x48.Idx → EReal) j = m ((c : Thread nD τ).loc main_arg5) j := by
  have hV : (V m c main_v6 : S8x128x48.Idx → EReal)
      = (truncf .bf16 (m ((c : Thread nD τ).loc main_arg5) : FVec Ideal S8x128x48 .f32) bitsLt_bf16_f32 : FVec Ideal S8x128x48 .bf16) := by
    dsimp only [V, hostOps0]; after_results <;> rfl
  rw [hV]
  rfl

/-! ## The windows move together -/

/-- The printed index maps, decided over the 64 grid points: the input rows' block moves with the output's; each
    weight and bias block follows the output's member axis and stays at the origin on the others; the output's block
    indices stay in their ranges. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (0 : Fin 3) < 8 ∧ win0_7.index t (1 : Fin 3) < 8 ∧ win0_7.index t (2 : Fin 3) = 0 :=
  (by decide +kernel : ∀ t : Fin grid0.N, _)

/-- Every (member, row tile) pair is some point's output block. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-- Every access of the body starts at the origin of its block. -/
theorem hz : (![0, 0, 0] : Fin 3 → Nat) = fun _ => 0 := funext fun a => by fin_cases a <;> rfl

/-! ## A point's blocks, read off the argument arrays -/

/-- The output block's member index is one of the 8 members, at every grid point. -/
theorem member_lt : ∀ t : Fin cfg0.N, win0_7.index t (0 : Fin 3) < 8 :=
  (by decide +kernel : ∀ t : Fin grid0.N, win0_7.index t (0 : Fin 3) < 8)

/-- The output block's row-tile index is one of the 8 tiles, at every grid point. -/
theorem tile_lt : ∀ t : Fin cfg0.N, win0_7.index t (1 : Fin 3) < 8 :=
  (by decide +kernel : ∀ t : Fin grid0.N, win0_7.index t (1 : Fin 3) < 8)

/-- The ensemble member grid point `t` works on. -/
def member (t : Fin cfg0.N) : Fin 8 := ⟨win0_7.index t (0 : Fin 3), member_lt t⟩

/-- The array row that row `r` of point `t`'s blocks is: the point's row tile times 8192, plus `r`. -/
def rowOf (t : Fin cfg0.N) (r : Fin 8192) : Fin 65536 :=
  ⟨win0_7.index t (1 : Fin 3) * 8192 + r.val, by have := tile_lt t; have := r.isLt; omega⟩

/-- Row `r` of the point's input block is row (member, rowOf r) of the input. -/
theorem rows_block (c : Dev nD) (t : Fin cfg0.N) (r : Fin 8192) (i : Fin 64) :
    iblk m c 0 t (ix3 (0 : Fin 1) r i) = m ((c : Thread nD τ).loc main_arg0) (ix4 (member t) (rowOf t r) (0 : Fin 1) i) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 0).blk t).view.emb (ix3 (0 : Fin 1) r i) = ix3 (member t) (rowOf t r) i := by
    funext a; apply Fin.ext
    match a with
    | ⟨0, _⟩ => show win0_0.index t (0 : Fin 3) * 1 + 1 * 0 = win0_7.index t (0 : Fin 3); omega
    | ⟨1, _⟩ => show win0_0.index t (1 : Fin 3) * 8192 + 1 * r.val = win0_7.index t (1 : Fin 3) * 8192 + r.val; omega
    | ⟨2, _⟩ => show win0_0.index t (2 : Fin 3) * 64 + 1 * i.val = i.val; omega
  show V m c main_v0 (((cfg0.win 0).blk t).view.emb (ix3 (0 : Fin 1) r i)) = _
  exact (congrArg (V m c main_v0 : S8x65536x64.Idx → EReal) hemb).trans (rows_at m c (member t) (rowOf t r) i)

/-- The point's first weight block is the member's first weights. -/
theorem weights1_block (c : Dev nD) (t : Fin cfg0.N) (k : Fin 64) (j : Fin 128) :
    iblk m c 1 t (ix3 (0 : Fin 1) k j) = m ((c : Thread nD τ).loc main_arg1) (ix3 (member t) k j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 1).blk t).view.emb (ix3 (0 : Fin 1) k j) = ix3 (member t) k j := by
    funext a; apply Fin.ext
    match a with
    | ⟨0, _⟩ => show win0_1.index t (0 : Fin 3) * 1 + 1 * 0 = win0_7.index t (0 : Fin 3); omega
    | ⟨1, _⟩ => show win0_1.index t (1 : Fin 3) * 64 + 1 * k.val = k.val; omega
    | ⟨2, _⟩ => show win0_1.index t (2 : Fin 3) * 128 + 1 * j.val = j.val; omega
  show V m c main_v4 (((cfg0.win 1).blk t).view.emb (ix3 (0 : Fin 1) k j)) = _
  exact (congrArg (V m c main_v4 : S8x64x128.Idx → EReal) hemb).trans (weights1_at m c (ix3 (member t) k j))

/-- The point's first bias block is the member's first bias. -/
theorem bias1_block (c : Dev nD) (t : Fin cfg0.N) (j : Fin 128) :
    iblk m c 2 t (ix3 (0 : Fin 1) (0 : Fin 1) j) = m ((c : Thread nD τ).loc main_arg2) (ix2 (member t) j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 2).blk t).view.emb (ix3 (0 : Fin 1) (0 : Fin 1) j) = ix3 (member t) (0 : Fin 1) j := by
    funext a; apply Fin.ext
    match a with
    | ⟨0, _⟩ => show win0_2.index t (0 : Fin 3) * 1 + 1 * 0 = win0_7.index t (0 : Fin 3); omega
    | ⟨1, _⟩ => show win0_2.index t (1 : Fin 3) * 1 + 1 * 0 = 0; omega
    | ⟨2, _⟩ => show win0_2.index t (2 : Fin 3) * 128 + 1 * j.val = j.val; omega
  show V m c main_v1 (((cfg0.win 2).blk t).view.emb (ix3 (0 : Fin 1) (0 : Fin 1) j)) = _
  exact (congrArg (V m c main_v1 : S8x1x128.Idx → EReal) hemb).trans (bias1_at m c (member t) j)

/-- The point's second weight block is the member's second weights. -/
theorem weights2_block (c : Dev nD) (t : Fin cfg0.N) (k : Fin 128) (j : Fin 128) :
    iblk m c 3 t (ix3 (0 : Fin 1) k j) = m ((c : Thread nD τ).loc main_arg3) (ix3 (member t) k j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 3).blk t).view.emb (ix3 (0 : Fin 1) k j) = ix3 (member t) k j := by
    funext a; apply Fin.ext
    match a with
    | ⟨0, _⟩ => show win0_3.index t (0 : Fin 3) * 1 + 1 * 0 = win0_7.index t (0 : Fin 3); omega
    | ⟨1, _⟩ => show win0_3.index t (1 : Fin 3) * 128 + 1 * k.val = k.val; omega
    | ⟨2, _⟩ => show win0_3.index t (2 : Fin 3) * 128 + 1 * j.val = j.val; omega
  show V m c main_v5 (((cfg0.win 3).blk t).view.emb (ix3 (0 : Fin 1) k j)) = _
  exact (congrArg (V m c main_v5 : S8x128x128.Idx → EReal) hemb).trans (weights2_at m c (ix3 (member t) k j))

/-- The point's second bias block is the member's second bias. -/
theorem bias2_block (c : Dev nD) (t : Fin cfg0.N) (j : Fin 128) :
    iblk m c 4 t (ix3 (0 : Fin 1) (0 : Fin 1) j) = m ((c : Thread nD τ).loc main_arg4) (ix2 (member t) j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 4).blk t).view.emb (ix3 (0 : Fin 1) (0 : Fin 1) j) = ix3 (member t) (0 : Fin 1) j := by
    funext a; apply Fin.ext
    match a with
    | ⟨0, _⟩ => show win0_4.index t (0 : Fin 3) * 1 + 1 * 0 = win0_7.index t (0 : Fin 3); omega
    | ⟨1, _⟩ => show win0_4.index t (1 : Fin 3) * 1 + 1 * 0 = 0; omega
    | ⟨2, _⟩ => show win0_4.index t (2 : Fin 3) * 128 + 1 * j.val = j.val; omega
  show V m c main_v2 (((cfg0.win 4).blk t).view.emb (ix3 (0 : Fin 1) (0 : Fin 1) j)) = _
  exact (congrArg (V m c main_v2 : S8x1x128.Idx → EReal) hemb).trans (bias2_at m c (member t) j)

/-- The point's third weight block is the member's third weights. -/
theorem weights3_block (c : Dev nD) (t : Fin cfg0.N) (k : Fin 128) (j : Fin 48) :
    iblk m c 5 t (ix3 (0 : Fin 1) k j) = m ((c : Thread nD τ).loc main_arg5) (ix3 (member t) k j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 5).blk t).view.emb (ix3 (0 : Fin 1) k j) = ix3 (member t) k j := by
    funext a; apply Fin.ext
    match a with
    | ⟨0, _⟩ => show win0_5.index t (0 : Fin 3) * 1 + 1 * 0 = win0_7.index t (0 : Fin 3); omega
    | ⟨1, _⟩ => show win0_5.index t (1 : Fin 3) * 128 + 1 * k.val = k.val; omega
    | ⟨2, _⟩ => show win0_5.index t (2 : Fin 3) * 48 + 1 * j.val = j.val; omega
  show V m c main_v6 (((cfg0.win 5).blk t).view.emb (ix3 (0 : Fin 1) k j)) = _
  exact (congrArg (V m c main_v6 : S8x128x48.Idx → EReal) hemb).trans (weights3_at m c (ix3 (member t) k j))

/-- The point's third bias block is the member's third bias. -/
theorem bias3_block (c : Dev nD) (t : Fin cfg0.N) (j : Fin 48) :
    iblk m c 6 t (ix3 (0 : Fin 1) (0 : Fin 1) j) = m ((c : Thread nD τ).loc main_arg6) (ix2 (member t) j) := by
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 6).blk t).view.emb (ix3 (0 : Fin 1) (0 : Fin 1) j) = ix3 (member t) (0 : Fin 1) j := by
    funext a; apply Fin.ext
    match a with
    | ⟨0, _⟩ => show win0_6.index t (0 : Fin 3) * 1 + 1 * 0 = win0_7.index t (0 : Fin 3); omega
    | ⟨1, _⟩ => show win0_6.index t (1 : Fin 3) * 1 + 1 * 0 = 0; omega
    | ⟨2, _⟩ => show win0_6.index t (2 : Fin 3) * 48 + 1 * j.val = j.val; omega
  show V m c main_v3 (((cfg0.win 6).blk t).view.emb (ix3 (0 : Fin 1) (0 : Fin 1) j)) = _
  exact (congrArg (V m c main_v3 : S8x1x48.Idx → EReal) hemb).trans (bias3_at m c (member t) j)

/-! ## What a point writes back -/

/-- Point `t` writes back block `t` of `RowMlp.result` of the argument arrays. -/
theorem flushed_eq (c : Dev nD) (t : Fin cfg0.N) :
    (dats m 0 c).flushed 7 t = ((cfg0.win 7).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S1x8192x64) hz, View.ld_unit_zero (S := S1x64x128) hz, View.ld_unit_zero (S := S1x1x128) hz,
    View.ld_unit_zero (S := S1x128x128) hz, View.ld_unit_zero (S := S1x128x48) hz, View.ld_unit_zero (S := S1x1x48) hz]
  refine funext fun (y : S1x8192x48.Idx) => ?_
  obtain ⟨u, r, o, rfl⟩ : ∃ (u : Fin 1) (r : Fin 8192) (o : Fin 48), y = ix3 u r o := ⟨y 0, y 1, y 2, eq_ix3 y⟩
  obtain rfl : u = 0 := Subsingleton.elim _ _
  obtain ⟨f0_0, f0_1, f0_2, f1_0, f1_1, f1_2, f2_0, f2_1, f2_2, f3_0, f3_1, f3_2, f4_0, f4_1, f4_2, f5_0, f5_1, f5_2, f6_0, f6_1, f6_2, g0, g1, g2⟩ := idx_facts t
  have hemb : ((cfg0.win 7).blk t).view.emb (ix3 (0 : Fin 1) r o) = ix3 (member t) (rowOf t r) o := by
    funext a; apply Fin.ext
    match a with
    | ⟨0, _⟩ => show win0_7.index t (0 : Fin 3) * 1 + 1 * 0 = win0_7.index t (0 : Fin 3); omega
    | ⟨1, _⟩ => show win0_7.index t (1 : Fin 3) * 8192 + 1 * r.val = win0_7.index t (1 : Fin 3) * 8192 + r.val; omega
    | ⟨2, _⟩ => show win0_7.index t (2 : Fin 3) * 48 + 1 * o.val = o.val; omega
  show k0_pay1 (F := Ideal) (k0_pay2 (iblk m c 0 t) (iblk m c 1 t) (iblk m c 2 t) (iblk m c 3 t) (iblk m c 4 t)) (k0_pay3 (iblk m c 5 t))
      (iblk m c 6 t) (ix3 (0 : Fin 1) r o)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix3 (0 : Fin 1) r o))
  rw [hemb]
  refine (Cert.BlockRows.stored_at (iblk m c 0 t) (iblk m c 1 t) (iblk m c 2 t) (iblk m c 3 t) (iblk m c 4 t) (iblk m c 5 t) (iblk m c 6 t) r o).trans ?_
  show _ = mlpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (member t) (rowOf t r) o
  unfold mlpAt
  exact out_congr (funext fun i => rows_block m c t r i)
    (funext fun i => funext fun h => weights1_block m c t i h) (funext fun h => bias1_block m c t h)
    (funext fun h => funext fun k => weights2_block m c t h k) (funext fun k => bias2_block m c t k)
    (funext fun k => funext fun o' => weights3_block m c t k o') (funext fun o' => bias3_block m c t o') o

/-! ## The blocks tile the array -/

/-- An index of the result array is in point `t`'s block iff each coordinate is in the block's range on its axis. -/
theorem mem_blk (t : Fin cfg0.N) (i : S8x65536x48.Idx) :
    i ∈ ((cfg0.win 7).blk t).view.set ↔ ∀ a : Fin 3, win0_7.index t a * S1x8192x48.size a ≤ (i a).val
      ∧ (i a).val < win0_7.index t a * S1x8192x48.size a + S1x8192x48.size a := by
  show i ∈ ((View.whole main_v7).slice (win0_7.rect t)).set ↔ _
  rw [View.set_slice_whole, Rect.mem_set_unit]
  exact Iff.rfl

/-- Every index of the result array lies in some point's block: entry (e, R, o) in the block of member `e` and row
    tile R / 8192. -/
theorem covered (i : S8x65536x48.Idx) :
    ∃ t : Fin cfg0.N, (cfg0.win 7).flush t = true ∧ i ∈ ((cfg0.win 7).blk t).view.set := by
  have hi0 : (i 0).val < 8 := (i 0).isLt
  have hi1 : (i 1).val < 65536 := (i 1).isLt
  have hi2 : (i 2).val < 48 := (i 2).isLt
  obtain ⟨t, ht⟩ := idx_onto ⟨(i 0).val, hi0⟩ ⟨(i 1).val / 8192, by omega⟩
  have q0 : win0_7.index t (0 : Fin 3) = (i 0).val := congrFun ht 0
  have q1 : win0_7.index t (1 : Fin 3) = (i 1).val / 8192 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8192 ≤ (i 1).val ∧ (i 1).val < win0_7.index t (1 : Fin 3) * 8192 + 8192; omega
  | ⟨2, _⟩ => show win0_7.index t (2 : Fin 3) * 48 ≤ (i 2).val ∧ (i 2).val < win0_7.index t (2 : Fin 3) * 48 + 48; omega

/-! ## The array after the run -/

/-- After the run the result array is `RowMlp.result` of the argument arrays: every point wrote its block of it, and
    the blocks cover the array. -/
theorem final (c : Dev nD) : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) covered

/-- Every weakly fair execution of the kernel's program terminates with the result array at `RowMlp.result` of the
    argument arrays and the arguments unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.WholeArray

end
-- ==== Proof.lean ====
/-
  The kernel and its reference compute one function of the seven argument arrays, on the extended reals:
  `RowMlp.result`. Each row of 64 inputs of each of 8 ensemble members has its last 16 lanes clipped to [−1, 1] and
  goes through that member's three affine layers (64 → 128 → 128 → 48), the first two followed by the ramp
  x ↦ max x 0.

  The kernel cuts the 65536 rows of a member into 8 tiles of 8192 and runs the three layers on a tile at each of
  8 × 8 grid points, clipping by a lane mask; the reference clips by cutting the row in two and joining the pieces
  again, and runs three batched matrix products over the whole arrays. On the extended reals a change of float
  format is the identity and a matrix product's entry is a finite sum, the same sum in both programs (the kernel's
  accumulator starts at zero and 0 + s = s for every extended real s), so the two agree entry by entry whatever the
  inputs: the three float words −1, 1 and 0 are the same words on both sides and are never evaluated, and the
  finiteness of the inputs is not used.

  Proof/RowMlp.lean states the function; Proof/RefRows.lean reads the reference's run as it; Proof/BlockRows.lean
  reads what the kernel's body stores at one grid point as one tile of it; Proof/WholeArray.lean assembles the tiles
  into the kernel's result array. The idealized kernel is the kernel's own text (no rewrite was applied), so that
  conjunct is `True`.
-/
import proofs.«144239_j25941602468195_2_alg».proof.Defs
import proofs.«144239_j25941602468195_2_alg».proof.Proof.Gen.Kernel
import proofs.«144239_j25941602468195_2_alg».proof.Proof.Gen.Kernel.Skeleton
import proofs.«144239_j25941602468195_2_alg».proof.Proof.Gen.Kernel.Launch
import proofs.«144239_j25941602468195_2_alg».proof.Proof.Gen.Kernel.Points
import proofs.«144239_j25941602468195_2_alg».proof.Proof.Gen.Kernel.Frame
import proofs.«144239_j25941602468195_2_alg».proof.Proof.Gen.KernelIdeal
import proofs.«144239_j25941602468195_2_alg».proof.Proof.Gen.KernelIdeal.Skeleton
import proofs.«144239_j25941602468195_2_alg».proof.Proof.Gen.KernelIdeal.Launch
import proofs.«144239_j25941602468195_2_alg».proof.Proof.Gen.KernelIdeal.Points
import proofs.«144239_j25941602468195_2_alg».proof.Proof.Gen.KernelIdeal.Frame
import proofs.«144239_j25941602468195_2_alg».proof.Proof.Gen.KernelIdeal.Value
import proofs.«144239_j25941602468195_2_alg».proof.Proof.Gen.ReferenceIdeal
import proofs.«144239_j25941602468195_2_alg».proof.Proof.Gen.ReferenceIdeal.Run
import proofs.«144239_j25941602468195_2_alg».proof.Proof.Gen.ReferenceIdeal.Read
import proofs.«144239_j25941602468195_2_alg».proof.Proof.Gen.Pre_finite_inputs
import proofs.«144239_j25941602468195_2_alg».proof.Proof.RowMlp
import proofs.«144239_j25941602468195_2_alg».proof.Proof.RefRows
import proofs.«144239_j25941602468195_2_alg».proof.Proof.BlockRows
import proofs.«144239_j25941602468195_2_alg».proof.Proof.WholeArray
import Idealize.ShloMosaic.Adequacy
import Idealize.ShloMosaic.Init

noncomputable section

namespace Cert.Proof

open Idealize.ShloMosaic Idealize.ShloMosaic.TcCoe Idealize.SL.Sem

/-- The kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories agreeing on the arguments the kernel's result array ends at `RowMlp.result` of the argument arrays
    (the tiles assembled) and so does the reference's (its run read row by row): equal, entry by entry. -/
theorem algebraic : Cert.algebraic_KernelIdeal_ReferenceIdeal := by
  intro m ρ m' ρ' _ hagree
  refine ⟨fun c => Cert.RowMlp.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.WholeArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.RefRows.reference_is_result, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
